-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "recip_scale" .f32 0x3D3504F3#32 ((524288 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_1)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_1) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S8192x512 .f32) (main_arg1 : FVec F S512x512 .f32) (main_arg2 : FVec F S512x512 .f32) (main_arg3 : FVec F S512 .f32) (main_arg4 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_v13 main_v16
-- ==== Kernel.lean ====
abbrev S8192x512 : Shape := ⟨2, ![8192, 512]⟩
abbrev S512x512 : Shape := ⟨2, ![512, 512]⟩
abbrev S512 : Shape := ⟨1, ![512]⟩
abbrev S1x512 : Shape := ⟨2, ![1, 512]⟩
abbrev S2048x512 : Shape := ⟨2, ![2048, 512]⟩

abbrev nBuf : Space → Nat
  | .hbm => 9
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S8192x512, .f32⟩
  | .hbm, ⟨8, _⟩ => ⟨S8192x512, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S8192x512.size a
  hwx0_5 : ∀ i : grid0.Coords, EltTy.bits .f32 = 32 ∨ (Rect.block (s := S8192x512) S2048x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S8192x512.size a
  hwx0_6 : ∀ i : grid0.Coords, EltTy.bits .f32 = 32 ∨ (Rect.block (s := S8192x512) S2048x512.size (cc0_transform_6 i) (hinb0_6 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S2048x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S2048x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x512 : Shape := ⟨2, ![512, 512]⟩
abbrev S512 : Shape := ⟨1, ![512]⟩
abbrev S_ : Shape := ⟨0, ![]⟩
abbrev S1x512 : Shape := ⟨2, ![1, 512]⟩

abbrev nBuf : Space → Nat
  | .hbm => 37
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S_, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .i1⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S1x512, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192x512, .f32⟩
  | .hbm, ⟨30, _⟩ => ⟨S8192x512, .f32⟩
  | .hbm, ⟨31, _⟩ => ⟨S512x512, .f32⟩
  | .hbm, ⟨32, _⟩ => ⟨S8192x512, .f32⟩
  | .hbm, ⟨33, _⟩ => ⟨S8192x512, .f32⟩
  | .hbm, ⟨34, _⟩ => ⟨S1x512, .f32⟩
  | .hbm, ⟨35, _⟩ => ⟨S8192x512, .f32⟩
  | .hbm, ⟨36, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call1_cst : Ref sig .tc := ⟨.hbm, 28, rfl⟩
abbrev main_call1_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  transposes_S512x512_S512x512_1_0 : S512x512.Transposes [1, 0] S512x512
  bcast_S_S8192x512 : S_.BroadcastsInDim S8192x512 (![] : Fin 0 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x512_S512x512_S8192x512_1_0_0_1_n_n_wf : DotDims.WF S8192x512 S512x512 S8192x512 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.ScoreSpec.lean ====
/-
  The functions both programs compute, on the extended reals, and the facts about their constants.

  For a row `x_r` of the input (512 entries), weights `mu`, `sigma` (512 × 512), and an output column `j`:
    key(j, k)   = mu(j, k) · softplus(sigma(j, k)),     softplus(s) = max(s, 0) + log(1 + exp(-|s|))
    score(r, j) = (Σ_k x_r(k) · key(j, k)) · (1/D)
    proj(r, j)  = Σ_k x_r(k) · mu(j, k)
    gated(r, j) = proj(r, j) · max(score(r, j) - gate(j), 0) + bias(j)
  where D = 11863283/524288 is the value of the divisor the reference program carries, and 1/D = 524288/11863283.
  A score depends on the input only through row r, so the functions are stated over a row; the same definitions
  then serve a block of rows and the whole array.
-/
import Idealize.ShloMosaic.PureOps.Ideal
import Idealize.ShloMosaic.PureOps.Ideal.Laws
import Idealize.ShloMosaic.Lib.ValueIdx

noncomputable section

namespace Cert.GatedLinear

open Idealize.ShloMosaic Idealize.ShloMosaic.ValueIdx

/-- softplus as both programs spell it: `max(s, 0) + log(1 + exp(-|s|))`, with `|s| = max(s, -s)`. -/
def softplus (s : EReal) : EReal := max s 0 + Ideal.log1p (Ideal.exp (-(max s (-s))))

/-- The reciprocal of the reference's divisor `D = 11863283/524288`. -/
def recipScale : EReal := ((524288 / 11863283 : ℝ) : EReal)

/-- `key(j, k) = mu(j, k) · softplus(sigma(j, k))`. -/
def keyAt (mu sg : (⟨2, ![512, 512]⟩ : Shape).Idx → EReal) (j k : Fin 512) : EReal :=
  mu (ix2 j k) * softplus (sg (ix2 j k))

/-- `score(j)` of one input row: the row's product with the keys of column `j`, times `1/D`. -/
def scoreOf (xrow : Fin 512 → EReal) (mu sg : (⟨2, ![512, 512]⟩ : Shape).Idx → EReal) (j : Fin 512) : EReal :=
  (∑ k : Fin 512, xrow k * keyAt mu sg j k) * recipScale

/-- `proj(j)` of one input row: the row's product with row `j` of `mu`. -/
def projOf (xrow : Fin 512 → EReal) (mu : (⟨2, ![512, 512]⟩ : Shape).Idx → EReal) (j : Fin 512) : EReal :=
  ∑ k : Fin 512, xrow k * mu (ix2 j k)

/-- `gated(j) = proj(j) · max(score(j) - g, 0) + b` for the gate value `g` and the bias value `b` of column `j`. -/
def gatedOf (xrow : Fin 512 → EReal) (mu sg : (⟨2, ![512, 512]⟩ : Shape).Idx → EReal) (g b : EReal) (j : Fin 512) : EReal :=
  projOf xrow mu j * max (scoreOf xrow mu sg j - g) 0 + b

/-- Row `r` of an `n × 512` array. -/
def rowOf {n : Nat} (x : (⟨2, ![n, 512]⟩ : Shape).Idx → EReal) (r : Fin n) : Fin 512 → EReal := fun k => x (ix2 r k)

/-- The score array of an `n × 512` input. -/
def scores {n : Nat} (x : (⟨2, ![n, 512]⟩ : Shape).Idx → EReal) (mu sg : (⟨2, ![512, 512]⟩ : Shape).Idx → EReal) :
    (⟨2, ![n, 512]⟩ : Shape).Idx → EReal :=
  fun i => scoreOf (rowOf x (i 0)) mu sg (i 1)

/-- The gated output array of an `n × 512` input. -/
def gated {n : Nat} (x : (⟨2, ![n, 512]⟩ : Shape).Idx → EReal) (mu sg : (⟨2, ![512, 512]⟩ : Shape).Idx → EReal)
    (gate bias : (⟨1, ![512]⟩ : Shape).Idx → EReal) : (⟨2, ![n, 512]⟩ : Shape).Idx → EReal :=
  fun i => gatedOf (rowOf x (i 0)) mu sg (gate (ix1 (i 1))) (bias (ix1 (i 1))) (i 1)

/-! ## The constants -/

/-- The reference's divisor word denotes `D = 11863283/524288` (= 1.0110101000001001111 0011₂ · 2⁴). -/
theorem ofBits_divisor : Ideal.ofBits .f32 0x41B504F3#32 = ((11863283 / 524288 : ℝ) : EReal) := by
  simp [Ideal.ofBits, Ideal.ieee, -EReal.coe_mul]; norm_num

/-- Dividing by `D` is multiplying by `1/D`, on every extended real: `D` is a nonzero real. -/
theorem div_divisor (x : EReal) : Ideal.div x (Ideal.ofBits .f32 0x41B504F3#32) = x * recipScale := by
  rw [ofBits_divisor, Ideal.div_coe (by norm_num : (11863283 / 524288 : ℝ) ≠ 0)]
  unfold recipScale
  congr 2
  norm_num

/-! ## softplus, as each program spells it -/

/-- A value never differs from itself: the comparison both programs guard softplus with is 0 on the extended
    reals (there is no NaN), whichever of the two "not equal" predicates it is spelt with. -/
theorem cmp_ne_self (p : CmpFPredicate) (hp : p = .one ∨ p = .une) (d : EReal) : Ideal.cmp p d d = 0#1 := by
  rcases hp with rfl | rfl <;> simp [Ideal.cmp]

/-- The kernel's spelling: the guard is dead, `s - 0 = s`, and `0 - |s| = -|s|`. -/
theorem softplus_kernel_form (s : EReal) :
    Scalar.select (Ideal.cmp .one (s - 0) (s - 0)) (s + 0)
      (max s 0 + Ideal.log1p (Ideal.exp (0 - max (s - 0) (-(s - 0))))) = softplus s := by
  rw [cmp_ne_self .one (.inl rfl), select_zero, sub_zero, zero_sub]
  rfl

/-- The reference's spelling: the guard is dead and `s - 0 = s`. -/
theorem softplus_host_form (s : EReal) :
    Scalar.select (Ideal.cmp .une (s - 0) (s - 0)) (s + 0)
      (max s 0 + Ideal.log1p (Ideal.exp (-(max (s - 0) (-(s - 0)))))) = softplus s := by
  rw [cmp_ne_self .une (.inr rfl), select_zero, sub_zero]
  rfl

end Cert.GatedLinear

end
-- ==== Proof.BlockValue.lean ====
/-
  The kernel's two payloads, read at an index of a block.

  At a grid point the kernel holds a block of 2048 rows of the input, and all of `mu`, `sigma`, the gate row and the
  bias row. Entry `(p, q)` of what it stores depends on the block only through its row `p`:
    the score payload is   (Σ_k x(p, k) · mu(q, k) · softplus(sigma(q, k))) · (1/D),
    the output payload is  (Σ_k x(p, k) · mu(q, k)) · max(score(p, q) - gate(0, q), 0) + bias(0, q).
  The roundings to bf16 on the way into the products are the identity on the extended reals, a product into a zero
  accumulator is the plain sum, and the scale constant is named `1/D`.
-/
import proofs.«104309_g1073741824313_week1_w2_1031_11_alg».proof.Proof.Gen.KernelIdeal.Skeleton
import proofs.«104309_g1073741824313_week1_w2_1031_11_alg».proof.Proof.ScoreSpec
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section
namespace Cert.KernelIdeal.BlockValue
open Cert.KernelIdeal Cert.KernelIdeal.Gen Idealize.ShloMosaic Idealize.ShloMosaic.ValueIdx Cert.GatedLinear

/-- The kernel's scale constant is named: at the extended reals it is `1/D`, the value the certificate's table gives it. -/
theorem recip_named : Named.named (F := Ideal) κ "recip_scale" (φ := .f32) 0x3D3504F3#32 = recipScale :=
  IdealRules.named_const.ideal_named_scalar _ _ _ _ rfl

/-! ## The matrix product of a block: both operands contract their second axis -/

theorem lhs_row (i : S2048x512.Idx) (c : dot_S2048x512_S512x512_S2048x512_1_1_0_0_n_n.contr.Idx) :
    (dot_S2048x512_S512x512_S2048x512_1_1_0_0_n_n.lhsIdx i c 0).val = (i 0).val := by
  unfold DotDims.lhsIdx
  rw [dif_neg (show ¬(0 : Fin S2048x512.rank) ∈ dot_S2048x512_S512x512_S2048x512_1_1_0_0_n_n.lhsBatch by decide), dif_pos (show (0 : Fin S2048x512.rank) ∈ dot_S2048x512_S512x512_S2048x512_1_1_0_0_n_n.lhsNonContracting by decide)]
  rfl
theorem lhs_contr (i : S2048x512.Idx) (c : dot_S2048x512_S512x512_S2048x512_1_1_0_0_n_n.contr.Idx) :
    (dot_S2048x512_S512x512_S2048x512_1_1_0_0_n_n.lhsIdx i c 1).val = (c ⟨0, by decide⟩).val :=
  dot_S2048x512_S512x512_S2048x512_1_1_0_0_n_n.lhsIdx_val_of_single rfl i c
theorem rhs_row (i : S2048x512.Idx) (c : dot_S2048x512_S512x512_S2048x512_1_1_0_0_n_n.contr.Idx) :
    (dot_S2048x512_S512x512_S2048x512_1_1_0_0_n_n.rhsIdx i c 0).val = (i 1).val := by
  unfold DotDims.rhsIdx
  rw [dif_neg (show ¬(0 : Fin S512x512.rank) ∈ dot_S2048x512_S512x512_S2048x512_1_1_0_0_n_n.rhsBatch by decide), dif_pos (show (0 : Fin S512x512.rank) ∈ dot_S2048x512_S512x512_S2048x512_1_1_0_0_n_n.rhsNonContracting by decide)]
  rfl
theorem rhs_contr (i : S2048x512.Idx) (c : dot_S2048x512_S512x512_S2048x512_1_1_0_0_n_n.contr.Idx) :
    (dot_S2048x512_S512x512_S2048x512_1_1_0_0_n_n.rhsIdx i c 1).val = (c ⟨0, by decide⟩).val :=
  dot_S2048x512_S512x512_S2048x512_1_1_0_0_n_n.rhsIdx_val_of_single rfl i c

/-- Into a zero accumulator, entry `(p, q)` of the product of a 2048 × 512 block with a 512 × 512 matrix, both
    contracted along their second axis, is `Σ_k a(p, k) · b(q, k)`. -/
theorem matmul_rows (a : FVec Ideal S2048x512 .bf16) (b : FVec Ideal S512x512 .bf16) (p : Fin 2048) (q : Fin 512) :
    matmul dot_S2048x512_S512x512_S2048x512_1_1_0_0_n_n none a b (constant S2048x512 .f32 0x00000000#32) (ix2 p q)
      = ∑ k : Fin 512, a (ix2 p k) * b (ix2 q k) := by
  show FloatOps.matmul dot_S2048x512_S512x512_S2048x512_1_1_0_0_n_n none a b (constant S2048x512 .f32 0x00000000#32) (ix2 p q) = _
  rw [Ideal.matmul_constant_zero_apply, ← Equiv.sum_comp (contrEquiv1 dot_S2048x512_S512x512_S2048x512_1_1_0_0_n_n 512 rfl rfl).symm]
  refine Finset.sum_congr rfl fun k _ => ?_
  have hk := contrEquiv1_symm_val dot_S2048x512_S512x512_S2048x512_1_1_0_0_n_n 512 rfl rfl k
  have el : dot_S2048x512_S512x512_S2048x512_1_1_0_0_n_n.lhsIdx (ix2 p q) ((contrEquiv1 dot_S2048x512_S512x512_S2048x512_1_1_0_0_n_n 512 rfl rfl).symm k) = ix2 p k := funext fun ax => Fin.ext (by
    match ax with
    | ⟨0, _⟩ => exact lhs_row _ _
    | ⟨1, _⟩ => exact (lhs_contr _ _).trans hk)
  have er : dot_S2048x512_S512x512_S2048x512_1_1_0_0_n_n.rhsIdx (ix2 p q) ((contrEquiv1 dot_S2048x512_S512x512_S2048x512_1_1_0_0_n_n 512 rfl rfl).symm k) = ix2 q k := funext fun ax => Fin.ext (by
    match ax with
    | ⟨0, _⟩ => exact rhs_row _ _
    | ⟨1, _⟩ => exact (rhs_contr _ _).trans hk)
  rw [el, er]

/-! ## softplus of a block, at an index -/

/-- The kernel's softplus of a matrix, read at an index, is softplus of the entry there. -/
theorem softplus_at (x2 : FVec Ideal S512x512 .f32) (i : S512x512.Idx) :
    (select (cmpf .one (subf x2 (broadcast S512x512 (FloatOps.ofBits .f32 0x00000000#32))) (subf x2 (broadcast S512x512 (FloatOps.ofBits .f32 0x00000000#32))))
      (addf x2 (broadcast S512x512 (FloatOps.ofBits .f32 0x00000000#32)))
      (addf (maximumf x2 (broadcast S512x512 (FloatOps.ofBits .f32 0x00000000#32)))
        (log1p (exp (subf (broadcast S512x512 (FloatOps.ofBits .f32 0x00000000#32)) (absf (subf x2 (broadcast S512x512 (FloatOps.ofBits .f32 0x00000000#32)))))))) : FVec Ideal S512x512 .f32) i
      = softplus (x2 i) := by
  show Scalar.select (Ideal.cmp .one (x2 i - Ideal.ofBits .f32 0x00000000#32) (x2 i - Ideal.ofBits .f32 0x00000000#32)) (x2 i + Ideal.ofBits .f32 0x00000000#32)
    (max (x2 i) (Ideal.ofBits .f32 0x00000000#32) + Ideal.log1p (Ideal.exp (Ideal.ofBits .f32 0x00000000#32 - max (x2 i - Ideal.ofBits .f32 0x00000000#32) (-(x2 i - Ideal.ofBits .f32 0x00000000#32))))) = _
  rw [Ideal.ofBits_zero_f32]
  exact softplus_kernel_form _

/-- The kernel's score payload at `(p, q)` of a block is the score of the block's row `p` at column `q`. -/
theorem pay2_at (x0 : Vec Ideal S2048x512 .f32) (x1 x2 : Vec Ideal S512x512 .f32) (p : Fin 2048) (q : Fin 512) :
    k0_pay2 (F := Ideal) x0 x1 x2 (ix2 p q) = scoreOf (rowOf x0 p) x1 x2 q := by
  unfold k0_pay2 k0_pay1
  dsimp only
  rw [mulf_apply, broadcast_apply, matmul_rows, recip_named]
  unfold scoreOf
  refine congrArg (· * recipScale) (Finset.sum_congr rfl fun k _ => ?_)
  exact congrArg (fun z => x0 (ix2 p k) * (x1 (ix2 q k) * z)) (softplus_at x2 (ix2 q k))

/-- A `1 × 512` row, recast to its own shape and repeated down 2048 rows, reads at `(p, q)` the row's entry `q`. -/
theorem row_repeated (v : FVec Ideal S1x512 .f32) (p : Fin 2048) (q : Fin 512) :
    broadcastTo S2048x512 (shapeCast S1x512 v Gen.shapeCasts_S1x512_S1x512) Gen.broadcasts_S1x512_S2048x512 (ix2 p q) = v (ix2 (0 : Fin 1) q) := by
  rw [shapeCast_self]
  exact broadcastTo_1b_ab_apply v Gen.broadcasts_S1x512_S2048x512 p q

/-- The kernel's output payload at `(p, q)` of a block is the gated value of the block's row `p` at column `q`,
    with the gate's and the bias's entry `q`. -/
theorem pay3_at (x0 : Vec Ideal S2048x512 .f32) (x1 x2 : Vec Ideal S512x512 .f32) (x3 x4 : Vec Ideal S1x512 .f32) (p : Fin 2048) (q : Fin 512) :
    k0_pay3 (F := Ideal) x0 x1 x2 x3 x4 (ix2 p q) = gatedOf (rowOf x0 p) x1 x2 (x3 (ix2 (0 : Fin 1) q)) (x4 (ix2 (0 : Fin 1) q)) q := by
  unfold k0_pay3 k0_pay1
  dsimp only
  rw [addf_apply, mulf_apply, maximumf_apply, subf_apply, broadcast_apply, matmul_rows, pay2_at, row_repeated, row_repeated]
  show _ * max _ (Ideal.ofBits .f32 0x00000000#32) + _ = _
  rw [Ideal.ofBits_zero_f32]
  rfl

end Cert.KernelIdeal.BlockValue

end
-- ==== Proof.ArrayValue.lean ====
/-
  The kernel's two result arrays as whole-array functions of its arguments.

  The grid has four points; point `t` reads rows `t · 2048 … t · 2048 + 2047` of the input and all of `mu`, `sigma`,
  the gate row and the bias row, and writes back the same rows of the score array and of the output array. Entry
  `(p, q)` of what it writes depends on the input only through row `p` of its block, which is row `t · 2048 + p` of the
  input: so each block written back is the block of one function of the whole arrays (`scores`, `gated`). The four
  blocks tile the 8192 rows — row `r` lies in block `r / 2048` — so after the run each array is that function. The gate
  and bias reach the kernel recast as `1 × 512` rows; read back as vectors they are the arguments.
-/
import proofs.«104309_g1073741824313_week1_w2_1031_11_alg».proof.Proof.Gen.KernelIdeal.Value
import proofs.«104309_g1073741824313_week1_w2_1031_11_alg».proof.Proof.BlockValue
import Idealize.ShloMosaic.Lib.StableHlo.Run

set_option maxRecDepth 16384
noncomputable section
namespace Cert.KernelIdeal.ArrayValue
open Cert.KernelIdeal Cert.KernelIdeal.Gen Idealize.ShloMosaic Idealize.ShloMosaic.TcCoe Idealize.SL.Sem Idealize.ShloMosaic.ValueIdx Cert.GatedLinear
open Cert.KernelIdeal.BlockValue
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the four grid points -/

/-- The input's block and both outputs' blocks are block `t` of rows (block index `(t, 0)`, `t ≤ 3`), and the four
    whole-array windows stay at block `(0, 0)`. -/
theorem idx_facts : ∀ t : Fin cfg0.N,
    win0_0.index t (0 : Fin 2) = win0_5.index t (0 : Fin 2) ∧ win0_0.index t (1 : Fin 2) = 0
    ∧ win0_6.index t (0 : Fin 2) = win0_5.index t (0 : Fin 2) ∧ win0_6.index t (1 : Fin 2) = 0
    ∧ win0_5.index t (1 : Fin 2) = 0 ∧ win0_5.index t (0 : Fin 2) ≤ 3
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every block of rows is some point's. -/
theorem idx_onto : ∀ b : Fin 4, ∃ t : Fin cfg0.N, win0_5.index t = ![b.val, 0] ∧ win0_6.index t = ![b.val, 0] :=
  (by decide +kernel : ∀ b : Fin 4, ∃ t : Fin grid0.N, win0_5.index t = ![b.val, 0] ∧ win0_6.index t = ![b.val, 0])

/-! ## The input windows' blocks, read off the arrays the region finds -/

/-- The block of `mu` at any point is all of `mu`. -/
theorem blk_mu (c : Dev nD) (t : Fin cfg0.N) : (iblk m c 1 t : S512x512.Idx → EReal) = (V m c main_arg1 : S512x512.Idx → EReal) := by
  funext y
  obtain ⟨-, -, -, -, -, -, e0, e1, -⟩ := idx_facts t
  show V m c main_arg1 (((cfg0.win 1).blk t).view.emb y) = V m c main_arg1 y
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- The block of `sigma` at any point is all of `sigma`. -/
theorem blk_sigma (c : Dev nD) (t : Fin cfg0.N) : (iblk m c 2 t : S512x512.Idx → EReal) = (V m c main_arg2 : S512x512.Idx → EReal) := by
  funext y
  obtain ⟨-, -, -, -, -, -, -, -, e0, e1, -⟩ := idx_facts t
  show V m c main_arg2 (((cfg0.win 2).blk t).view.emb y) = V m c main_arg2 y
  refine congrArg _ (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega

/-- The block of the gate row at any point is the whole row. -/
theorem blk_gate (c : Dev nD) (t : Fin cfg0.N) : (iblk m c 3 t : S1x512.Idx → EReal) = (V m c main_v0 : S1x512.Idx → EReal) := by
  funext y
  obtain ⟨-, -, -, -, -, -, -, -, -, -, e0, e1, -⟩ := idx_facts t
  show V m c main_v0 (((cfg0.win 3).blk t).view.emb y) = V m c main_v0 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 512 + 1 * (y 1).val = (y 1).val; omega

/-- The block of the bias row at any point is the whole row. -/
theorem blk_bias (c : Dev nD) (t : Fin cfg0.N) : (iblk m c 4 t : S1x512.Idx → EReal) = (V m c main_v1 : S1x512.Idx → EReal) := by
  funext y
  obtain ⟨-, -, -, -, -, -, -, -, -, -, -, -, e0, e1⟩ := idx_facts t
  show V m c main_v1 (((cfg0.win 4).blk t).view.emb y) = V m c main_v1 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 512 + 1 * (y 1).val = (y 1).val; omega

/-- Row `p` of the input's block at point `t` is row `t · 2048 + p` of the input. -/
theorem row_x (c : Dev nD) (t : Fin cfg0.N) (p : Fin 2048) (r : Fin 8192) (hr : r.val = win0_0.index t (0 : Fin 2) * 2048 + p.val) :
    rowOf (n := 2048) (iblk m c 0 t) p = rowOf (n := 8192) (V m c main_arg0) r := by
  funext k
  obtain ⟨-, e1, -⟩ := idx_facts t
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 2048 + 1 * p.val = r.val; omega
  | ⟨1, _⟩ => show win0_0.index t (1 : Fin 2) * 512 + 1 * k.val = k.val; omega

/-! ## Equal arguments give equal scores and equal outputs -/

theorem scoreOf_congr {xr xr' : Fin 512 → EReal} {mu mu' sg sg' : (⟨2, ![512, 512]⟩ : Shape).Idx → EReal} {j j' : Fin 512}
    (h0 : xr = xr') (h1 : mu = mu') (h2 : sg = sg') (hj : j = j') : scoreOf xr mu sg j = scoreOf xr' mu' sg' j' := by
  subst h0 h1 h2 hj; rfl

theorem gatedOf_congr {xr xr' : Fin 512 → EReal} {mu mu' sg sg' : (⟨2, ![512, 512]⟩ : Shape).Idx → EReal} {g g' b b' : EReal} {j j' : Fin 512}
    (h0 : xr = xr') (h1 : mu = mu') (h2 : sg = sg') (hg : g = g') (hb : b = b') (hj : j = j') :
    gatedOf xr mu sg g b j = gatedOf xr' mu' sg' g' b' j' := by
  subst h0 h1 h2 hg hb hj; rfl

/-- A `1 × 512` row as a length-512 vector. -/
def rowVec (v : (⟨2, ![1, 512]⟩ : Shape).Idx → EReal) : (⟨1, ![512]⟩ : Shape).Idx → EReal := fun j => v (ix2 (0 : Fin 1) (j 0))

/-! ## What each point writes back is its block of one whole-array function -/

/-- Point `t` writes back, to the score window, block `t` of the score array of the arrays the region finds. -/
theorem flushed5_eq (c : Dev nD) (t : Fin cfg0.N) :
    (dats m 0 c).flushed 5 t = ((cfg0.win 5).blk t).view.read (Elt Ideal) (scores (n := 8192) (V m c main_arg0) (V m c main_arg1) (V m c main_arg2)) := by
  rw [Cert.KernelIdeal.Value.flushed5]
  unfold out0_5
  rw [View.canon_unit_zero hz]
  simp only [View.ld_unit_zero (S := S2048x512) hz, View.ld_unit_zero (S := S512x512) hz]
  funext y
  obtain ⟨p, q, rfl⟩ : ∃ (p : Fin 2048) (q : Fin 512), y = ix2 p q := ⟨y 0, y 1, eq_ix2 y⟩
  obtain ⟨e0, -, -, -, e4, -⟩ := idx_facts t
  show k0_pay2 (iblk m c 0 t) (iblk m c 1 t) (iblk m c 2 t) (ix2 p q)
    = scoreOf (rowOf (n := 8192) (V m c main_arg0) ((((cfg0.win 5).blk t).view.emb (ix2 p q)) 0)) (V m c main_arg1) (V m c main_arg2) ((((cfg0.win 5).blk t).view.emb (ix2 p q)) 1)
  refine (pay2_at (iblk m c 0 t) (iblk m c 1 t) (iblk m c 2 t) p q).trans ?_
  refine scoreOf_congr (row_x m c t p _ ?_) (blk_mu m c t) (blk_sigma m c t) (Fin.ext ?_)
  · show win0_5.index t (0 : Fin 2) * 2048 + 1 * p.val = win0_0.index t (0 : Fin 2) * 2048 + p.val; omega
  · show q.val = win0_5.index t (1 : Fin 2) * 512 + 1 * q.val; omega

/-- Point `t` writes back, to the output window, block `t` of the gated array of the arrays the region finds. -/
theorem flushed6_eq (c : Dev nD) (t : Fin cfg0.N) :
    (dats m 0 c).flushed 6 t = ((cfg0.win 6).blk t).view.read (Elt Ideal)
      (gated (n := 8192) (V m c main_arg0) (V m c main_arg1) (V m c main_arg2) (rowVec (V m c main_v0)) (rowVec (V m c main_v1))) := by
  rw [Cert.KernelIdeal.Value.flushed6]
  unfold out0_6
  rw [View.canon_unit_zero hz]
  simp only [View.ld_unit_zero (S := S2048x512) hz, View.ld_unit_zero (S := S512x512) hz, View.ld_unit_zero (S := S1x512) hz]
  funext y
  obtain ⟨p, q, rfl⟩ : ∃ (p : Fin 2048) (q : Fin 512), y = ix2 p q := ⟨y 0, y 1, eq_ix2 y⟩
  obtain ⟨e0, -, e2, e3, -⟩ := idx_facts t
  have hcol : q = (((cfg0.win 6).blk t).view.emb (ix2 p q)) 1 := Fin.ext (by
    show q.val = win0_6.index t (1 : Fin 2) * 512 + 1 * q.val; omega)
  show k0_pay3 (iblk m c 0 t) (iblk m c 1 t) (iblk m c 2 t) (iblk m c 3 t) (iblk m c 4 t) (ix2 p q)
    = gatedOf (rowOf (n := 8192) (V m c main_arg0) ((((cfg0.win 6).blk t).view.emb (ix2 p q)) 0)) (V m c main_arg1) (V m c main_arg2)
        (rowVec (V m c main_v0) (ix1 ((((cfg0.win 6).blk t).view.emb (ix2 p q)) 1))) (rowVec (V m c main_v1) (ix1 ((((cfg0.win 6).blk t).view.emb (ix2 p q)) 1)))
        ((((cfg0.win 6).blk t).view.emb (ix2 p q)) 1)
  refine (pay3_at (iblk m c 0 t) (iblk m c 1 t) (iblk m c 2 t) (iblk m c 3 t) (iblk m c 4 t) p q).trans ?_
  refine gatedOf_congr (row_x m c t p _ ?_) (blk_mu m c t) (blk_sigma m c t) ?_ ?_ hcol
  · show win0_6.index t (0 : Fin 2) * 2048 + 1 * p.val = win0_0.index t (0 : Fin 2) * 2048 + p.val; omega
  · exact (congrFun (blk_gate m c t) (ix2 (0 : Fin 1) q)).trans (congrArg (fun z => (V m c main_v0 : S1x512.Idx → EReal) (ix2 (0 : Fin 1) z)) hcol)
  · exact (congrFun (blk_bias m c t) (ix2 (0 : Fin 1) q)).trans (congrArg (fun z => (V m c main_v1 : S1x512.Idx → EReal) (ix2 (0 : Fin 1) z)) hcol)

/-! ## The blocks tile the arrays -/

/-- An index is in point `t`'s block of the score array iff each coordinate is in the block's range. -/
theorem mem_blk5 (t : Fin cfg0.N) (i : S8192x512.Idx) :
    i ∈ ((cfg0.win 5).blk t).view.set ↔ ∀ a : Fin 2, win0_5.index t a * S2048x512.size a ≤ (i a).val ∧ (i a).val < win0_5.index t a * S2048x512.size a + S2048x512.size a := by
  show i ∈ ((View.whole main_v2_0).slice (win0_5.rect t)).set ↔ _
  rw [View.set_slice_whole, Rect.mem_set_unit]
  exact Iff.rfl

theorem mem_blk6 (t : Fin cfg0.N) (i : S8192x512.Idx) :
    i ∈ ((cfg0.win 6).blk t).view.set ↔ ∀ a : Fin 2, win0_6.index t a * S2048x512.size a ≤ (i a).val ∧ (i a).val < win0_6.index t a * S2048x512.size a + S2048x512.size a := by
  show i ∈ ((View.whole main_v2_1).slice (win0_6.rect t)).set ↔ _
  rw [View.set_slice_whole, Rect.mem_set_unit]
  exact Iff.rfl

/-- Row `r` lies in the block of rows `r / 2048`, which some point writes back: the blocks cover the score array. -/
theorem cover5 (i : S8192x512.Idx) : ∃ t : Fin cfg0.N, (cfg0.win 5).flush t = true ∧ i ∈ ((cfg0.win 5).blk t).view.set := by
  have hi0 : (i 0).val < 8192 := (i 0).isLt
  have hi1 : (i 1).val < 512 := (i 1).isLt
  obtain ⟨t, ht, -⟩ := idx_onto ⟨(i 0).val / 2048, by omega⟩
  have q0 : win0_5.index t (0 : Fin 2) = (i 0).val / 2048 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 512 ≤ (i 1).val ∧ (i 1).val < win0_5.index t (1 : Fin 2) * 512 + 512; omega

/-- and the output array likewise. -/
theorem cover6 (i : S8192x512.Idx) : ∃ t : Fin cfg0.N, (cfg0.win 6).flush t = true ∧ i ∈ ((cfg0.win 6).blk t).view.set := by
  have hi0 : (i 0).val < 8192 := (i 0).isLt
  have hi1 : (i 1).val < 512 := (i 1).isLt
  obtain ⟨t, -, ht⟩ := idx_onto ⟨(i 0).val / 2048, by omega⟩
  have q0 : win0_6.index t (0 : Fin 2) = (i 0).val / 2048 := congrFun ht 0
  have q1 : win0_6.index t (1 : Fin 2) = 0 := congrFun ht 1
  refine ⟨t, flush0_6 t, ?_⟩
  rw [mem_blk6]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 512 ≤ (i 1).val ∧ (i 1).val < win0_6.index t (1 : Fin 2) * 512 + 512; omega

/-! ## The gate and the bias rows, as the host operations before the region leave them -/

/-- The region finds, in the gate window's array, the gate vector recast as a `1 × 512` row; as a vector again it is
    the gate vector. -/
theorem gate_row (c : Dev nD) : rowVec (V m c main_v0) = m ((c : Thread nD τ).loc main_arg3) := by
  have e : (V m c main_v0 : S1x512.Idx → EReal) = shapeCast S1x512 (m ((c : Thread nD τ).loc main_arg3)) Gen.shapeCasts_S512_S1x512 := by
    dsimp only [Gen.V, Gen.hostOps0]; after_results; rfl
  funext j
  obtain ⟨q, rfl⟩ : ∃ q : Fin 512, j = ix1 q := ⟨j 0, eq_ix1 j⟩
  show (V m c main_v0 : S1x512.Idx → EReal) (ix2 (0 : Fin 1) q) = _
  rw [e]
  exact shapeCast_a_1a_apply _ Gen.shapeCasts_S512_S1x512 (0 : Fin 1) q

/-- The same for the bias. -/
theorem bias_row (c : Dev nD) : rowVec (V m c main_v1) = m ((c : Thread nD τ).loc main_arg4) := by
  have e : (V m c main_v1 : S1x512.Idx → EReal) = shapeCast S1x512 (m ((c : Thread nD τ).loc main_arg4)) Gen.shapeCasts_S512_S1x512 := by
    dsimp only [Gen.V, Gen.hostOps0]; after_results; rfl
  funext j
  obtain ⟨q, rfl⟩ : ∃ q : Fin 512, j = ix1 q := ⟨j 0, eq_ix1 j⟩
  show (V m c main_v1 : S1x512.Idx → EReal) (ix2 (0 : Fin 1) q) = _
  rw [e]
  exact shapeCast_a_1a_apply _ Gen.shapeCasts_S512_S1x512 (0 : Fin 1) q

/-! ## The arrays after the run -/

/-- The score array after the run is the score array of the arguments. -/
theorem final5 (c : Dev nD) : (dats m 0 c).arrAt 5 cfg0.N
    = scores (n := 8192) (m ((c : Thread nD τ).loc main_arg0)) (m ((c : Thread nD τ).loc main_arg1)) (m ((c : Thread nD τ).loc main_arg2)) := by
  rw [(dats m 0 c).arrAt_eq_of_cover 5 _ (fun t _ => flushed5_eq m c t) cover5, V_main_arg0, V_main_arg1, V_main_arg2]

/-- The output array after the run is the gated array of the arguments. -/
theorem final6 (c : Dev nD) : (dats m 0 c).arrAt 6 cfg0.N
    = gated (n := 8192) (m ((c : Thread nD τ).loc main_arg0)) (m ((c : Thread nD τ).loc main_arg1)) (m ((c : Thread nD τ).loc main_arg2))
        (m ((c : Thread nD τ).loc main_arg3)) (m ((c : Thread nD τ).loc main_arg4)) := by
  rw [(dats m 0 c).arrAt_eq_of_cover 6 _ (fun t _ => flushed6_eq m c t) cover6, V_main_arg0, V_main_arg1, V_main_arg2, gate_row, bias_row]

/-- The kernel's run: every weakly fair execution terminates with the score result at `scores` and the output result at
    `gated` of the argument arrays, the arguments unchanged. -/
theorem run : θ_run defs (onTc (τ := τ) (main (F := Ideal))) ⟨m, fun _ => 0, ρ⟩ fun r => ∀ c : Dev nD,
      r.2.mem ((c : Thread nD τ).loc main_v2_0) = scores (n := 8192) (m ((c : Thread nD τ).loc main_arg0)) (m ((c : Thread nD τ).loc main_arg1)) (m ((c : Thread nD τ).loc main_arg2))
      ∧ r.2.mem ((c : Thread nD τ).loc main_v2_1) = gated (n := 8192) (m ((c : Thread nD τ).loc main_arg0)) (m ((c : Thread nD τ).loc main_arg1)) (m ((c : Thread nD τ).loc main_arg2))
          (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (Cert.KernelIdeal.Value.run_blocks m ρ)

end Cert.KernelIdeal.ArrayValue
end
-- ==== Proof.RefValue.lean ====
/-
  The reference's two results as the specification's functions.

  The reference computes keys = mu · softplus(sigma), the score array (x · keysᵀ) / D, the projection x · muᵀ, and the
  output projection · max(score - gate, 0) + bias. Read at an index (r, j), a product against a transposed matrix
  is Σ_k x(r, k) · M(j, k); dividing by the nonzero real D is multiplying by 1/D on every extended real; the
  softplus guard (a value compared with itself for inequality) never fires, there being no NaN. So the score result
  is `scores` and the output result is `gated` of the five arguments.
-/
import proofs.«104309_g1073741824313_week1_w2_1031_11_alg».proof.Proof.Gen.ReferenceIdeal.Read
import proofs.«104309_g1073741824313_week1_w2_1031_11_alg».proof.Proof.ScoreSpec
import Idealize.ShloMosaic.PureOps.Ideal.Laws
import Idealize.ShloMosaic.Lib.ValueIdx

noncomputable section
namespace Cert.ReferenceIdeal.RefValue
open Cert.ReferenceIdeal Cert.ReferenceIdeal.Read Idealize.ShloMosaic Idealize.ShloMosaic.ValueIdx Cert.GatedLinear

/-- The reference's softplus of `sigma`, read at an index, is softplus of the entry there. -/
theorem softplus_ref (x2 : (⟨S512x512, .f32⟩ : BufTy).Contents (Elt Ideal)) (j : S512x512.Idx) :
    val_main_v0 (F := Ideal) x2 j = softplus (x2 j) := by
  simp only [val_main_v0_apply, val_main_call0_v4_apply, val_main_call0_v3_apply, val_main_call0_v2_apply, val_main_call0_v6_apply,
    val_main_call0_v5_apply, val_main_call0_v11_apply, val_main_call0_v1_apply, val_main_call0_v0_apply, val_main_call0_v10_apply,
    val_main_call0_v9_apply, val_main_call0_v8_apply, val_main_call0_v7_apply, val_main_call0_cst_apply]
  show Scalar.select (Ideal.cmp .une (x2 j - Ideal.ofBits .f32 0x00000000#32) (x2 j - Ideal.ofBits .f32 0x00000000#32)) (x2 j + Ideal.ofBits .f32 0x00000000#32)
    (max (x2 j) (Ideal.ofBits .f32 0x00000000#32) + Ideal.log1p (Ideal.exp (-(max (x2 j - Ideal.ofBits .f32 0x00000000#32) (-(x2 j - Ideal.ofBits .f32 0x00000000#32)))))) = _
  rw [Ideal.ofBits_zero_f32]
  exact softplus_host_form _

/-! ## Where the reference's products read their operands -/

/-- The left operand of either product at output `i` and contraction index `k` is the input's entry `(i 0, k)`. -/
theorem lidx_scores (i : S8192x512.Idx) (k : Fin 512) : lidx_main_v3 i k = ix2 (i 0) k :=
  funext fun a => Fin.ext (by match a with | ⟨0, _⟩ => rfl | ⟨1, _⟩ => rfl)
theorem lidx_proj (i : S8192x512.Idx) (k : Fin 512) : lidx_main_v11 i k = ix2 (i 0) k :=
  funext fun a => Fin.ext (by match a with | ⟨0, _⟩ => rfl | ⟨1, _⟩ => rfl)
/-- The right operand is a transpose: its entry `(k, i 1)` is the untransposed matrix's entry `(i 1, k)`. -/
theorem ridx_scores (i : S8192x512.Idx) (k : Fin 512) : idx_main_v2 (ridx_main_v3 i k) = ix2 (i 1) k :=
  funext fun a => Fin.ext (by match a with | ⟨0, _⟩ => rfl | ⟨1, _⟩ => rfl)
theorem ridx_proj (i : S8192x512.Idx) (k : Fin 512) : idx_main_v10 (ridx_main_v11 i k) = ix2 (i 1) k :=
  funext fun a => Fin.ext (by match a with | ⟨0, _⟩ => rfl | ⟨1, _⟩ => rfl)
/-- A length-512 vector, set as a `1 × 512` row and repeated down the rows, reads at `i` its entry `i 1`. -/
theorem idx_gate (i : S8192x512.Idx) : idx_main_v6 (idx_main_v7 i) = ix1 (i 1) :=
  funext fun a => Fin.ext (by match a with | ⟨0, _⟩ => rfl)
theorem idx_bias (i : S8192x512.Idx) : idx_main_v13 (idx_main_v14 i) = ix1 (i 1) :=
  funext fun a => Fin.ext (by match a with | ⟨0, _⟩ => rfl)

/-! ## The reference's two results -/

/-- The reference's score at `i`: the product of the input's row with the keys' column, divided by `D`. -/
theorem scores_ref_at (x0 : (⟨S8192x512, .f32⟩ : BufTy).Contents (Elt Ideal)) (x1 x2 : (⟨S512x512, .f32⟩ : BufTy).Contents (Elt Ideal)) (i : S8192x512.Idx) :
    val_main_v5 (F := Ideal) x0 x1 x2 i = scoreOf (rowOf x0 (i 0)) x1 x2 (i 1) := by
  rw [val_main_v5_apply, val_main_v3_apply, val_main_v4_apply, val_main_cst_apply]
  show Ideal.div _ (Ideal.ofBits .f32 0x41B504F3#32) = _
  rw [div_divisor]
  unfold scoreOf
  refine congrArg (· * recipScale) (Finset.sum_congr rfl fun k _ => ?_)
  rw [val_main_v2_apply, val_main_v1_apply, lidx_scores, ridx_scores]
  exact congrArg (fun z => x0 (ix2 (i 0) k) * (x1 (ix2 (i 1) k) * z)) (softplus_ref x2 (ix2 (i 1) k))

theorem scores_ref (x0 : (⟨S8192x512, .f32⟩ : BufTy).Contents (Elt Ideal)) (x1 x2 : (⟨S512x512, .f32⟩ : BufTy).Contents (Elt Ideal)) :
    val_main_v5 (F := Ideal) x0 x1 x2 = scores x0 x1 x2 :=
  funext fun i => scores_ref_at x0 x1 x2 i

/-- The reference's gated output at `i`. -/
theorem gated_ref (x0 : (⟨S8192x512, .f32⟩ : BufTy).Contents (Elt Ideal)) (x1 x2 : (⟨S512x512, .f32⟩ : BufTy).Contents (Elt Ideal))
    (x3 x4 : (⟨S512, .f32⟩ : BufTy).Contents (Elt Ideal)) :
    val_main_v15 (F := Ideal) x0 x1 x2 x3 x4 = gated x0 x1 x2 x3 x4 := by
  funext i
  rw [val_main_v15_apply, val_main_v12_apply, val_main_v11_apply, val_main_v9_apply, val_main_v8_apply, val_main_v7_apply, val_main_v6_apply,
    val_main_v14_apply, val_main_v13_apply, val_main_call1_v0_apply, val_main_call1_cst_apply, idx_gate, idx_bias, scores_ref_at]
  show (∑ k, x0 (lidx_main_v11 i k) * val_main_v10 x1 (ridx_main_v11 i k)) * max (scoreOf (rowOf x0 (i 0)) x1 x2 (i 1) - x3 (ix1 (i 1))) (Ideal.ofBits .f32 0x00000000#32) + x4 (ix1 (i 1))
    = gatedOf (rowOf x0 (i 0)) x1 x2 (x3 (ix1 (i 1))) (x4 (ix1 (i 1))) (i 1)
  rw [Ideal.ofBits_zero_f32]
  unfold gatedOf projOf
  refine congrArg (fun z => z * max (scoreOf (rowOf x0 (i 0)) x1 x2 (i 1) - x3 (ix1 (i 1))) 0 + x4 (ix1 (i 1))) (Finset.sum_congr rfl fun k _ => ?_)
  rw [val_main_v10_apply, lidx_proj, ridx_proj]
  rfl

end Cert.ReferenceIdeal.RefValue
end
-- ==== Proof.lean ====
/-
  The kernel computes, for an input x (8192 × 512), weights mu and sigma (512 × 512), a gate and a bias (512):
    scores = (x · keysᵀ) · c,   keys = mu · softplus(sigma),
    out    = (x · muᵀ) · max(scores - gate, 0) + bias,
  block by block over four blocks of 2048 rows, rounding the products' operands to bf16; the reference computes
    scores = (x · keysᵀ) / D,   out = (x · muᵀ) · max(scores - gate, 0) + bias
  in one piece. On the extended reals a rounding is the identity, a product accumulated into zero is the plain sum,
  and softplus's self-comparison guard never fires. The kernel's constant c is the f32 rounding of 1/D, where
  D = 11863283/524288 is the value of the reference's divisor; it is named 1/D = 524288/11863283, and dividing by
  the nonzero real D is multiplying by 1/D on every extended real. So both programs end with the same two arrays,
  `Cert.GatedLinear.scores` and `Cert.GatedLinear.gated` of the arguments (Proof/ScoreSpec.lean); no finiteness of the
  inputs is used. The kernel's side is Proof/BlockValue.lean (a block's entries) and Proof/ArrayValue.lean (the
  blocks tile the arrays); the reference's side is Proof/RefValue.lean.
-/
import proofs.«104309_g1073741824313_week1_w2_1031_11_alg».proof.Defs
import proofs.«104309_g1073741824313_week1_w2_1031_11_alg».proof.Proof.Gen.Kernel
import proofs.«104309_g1073741824313_week1_w2_1031_11_alg».proof.Proof.Gen.Kernel.Skeleton
import proofs.«104309_g1073741824313_week1_w2_1031_11_alg».proof.Proof.Gen.Kernel.Launch
import proofs.«104309_g1073741824313_week1_w2_1031_11_alg».proof.Proof.Gen.Kernel.Points
import proofs.«104309_g1073741824313_week1_w2_1031_11_alg».proof.Proof.Gen.Kernel.Frame
import proofs.«104309_g1073741824313_week1_w2_1031_11_alg».proof.Proof.Gen.KernelIdeal
import proofs.«104309_g1073741824313_week1_w2_1031_11_alg».proof.Proof.Gen.KernelIdeal.Skeleton
import proofs.«104309_g1073741824313_week1_w2_1031_11_alg».proof.Proof.Gen.KernelIdeal.Launch
import proofs.«104309_g1073741824313_week1_w2_1031_11_alg».proof.Proof.Gen.KernelIdeal.Points
import proofs.«104309_g1073741824313_week1_w2_1031_11_alg».proof.Proof.Gen.KernelIdeal.Frame
import proofs.«104309_g1073741824313_week1_w2_1031_11_alg».proof.Proof.Gen.ReferenceIdeal
import proofs.«104309_g1073741824313_week1_w2_1031_11_alg».proof.Proof.Gen.Pre_finite_inputs
import proofs.«104309_g1073741824313_week1_w2_1031_11_alg».proof.Proof.Gen.KernelIdeal.Value
import proofs.«104309_g1073741824313_week1_w2_1031_11_alg».proof.Proof.Gen.ReferenceIdeal.Run
import proofs.«104309_g1073741824313_week1_w2_1031_11_alg».proof.Proof.Gen.ReferenceIdeal.Read
import proofs.«104309_g1073741824313_week1_w2_1031_11_alg».proof.Proof.ArrayValue
import proofs.«104309_g1073741824313_week1_w2_1031_11_alg».proof.Proof.RefValue
import Idealize.ShloMosaic.Adequacy
import Idealize.ShloMosaic.Init

noncomputable section

namespace Cert.Proof

open Idealize.ShloMosaic Idealize.ShloMosaic.TcCoe Idealize.SL.Sem Cert.GatedLinear

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run, the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The one rewrite of the idealization: the scale constant is named, and the table gives the name `1/D`. -/
theorem preserves : Cert.preserves_Kernel_KernelIdeal :=
  IdealRules.named_const.statement Cert.KernelIdeal.κ "recip_scale" .f32 0x3D3504F3#32 ((524288 / 11863283 : ℝ) : EReal) rfl

/-- From memories agreeing on the arguments both programs end with the output array at `gated` and the score array
    at `scores` of the arguments. -/
theorem algebraic : Cert.algebraic_KernelIdeal_ReferenceIdeal := by
  intro m ρ m' ρ' _ hagree
  refine ⟨fun c => gated (n := 8192) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)),
      fun c => scores (n := 8192) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      fun c => gated (n := 8192) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)),
      ?_, ?_⟩
  · exact (θ_run Cert.KernelIdeal.defs _ _).mono (fun _ h c => ⟨(h c).2.1, (h c).1, (h c).2.1, (h c).2.2⟩)
      (Cert.KernelIdeal.ArrayValue.run m ρ)
  · refine (θ_run Cert.ReferenceIdeal.defs _ _).mono (fun _ h c => ⟨(h c).1.trans ?_, (h c).2.1.trans ?_, (h c).2.2.1.trans ?_, (h c).2.2.2⟩)
      (Cert.ReferenceIdeal.Value.run (F := Ideal) m' ρ')
    · rw [Cert.ReferenceIdeal.Read.val_main_v15_eq, Cert.ReferenceIdeal.RefValue.gated_ref,
        (hagree c).1, (hagree c).2.1, (hagree c).2.2.1, (hagree c).2.2.2.1, (hagree c).2.2.2.2]
    · rw [Cert.ReferenceIdeal.Read.val_main_v5_eq, Cert.ReferenceIdeal.RefValue.scores_ref,
        (hagree c).1, (hagree c).2.1, (hagree c).2.2.1]
    · rw [Cert.ReferenceIdeal.Read.val_main_v15_eq, Cert.ReferenceIdeal.RefValue.gated_ref,
        (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
